-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x32x32 : Shape := ⟨4, ![32, 1024, 32, 32]⟩
abbrev S_ : Shape := ⟨0, ![]⟩

class Facts : Prop where
  bcast_S_S32x1024x32x32 : S_.BroadcastsInDim S32x1024x32x32 (![] : Fin 0 → Fin S32x1024x32x32.rank)
  reducesTo_S32x1024x32x32_S_d0_1_2_3 : S32x1024x32x32.ReducesTo [0, 1, 2, 3] S_
  h_S_ : 0 < S_.numel

variable [Facts]

def fn {F : FTy → Type} [FloatOps F] (main_arg0 : FVec F S32x1024x32x32 .f32) : IVec S_ 1 :=
  let main_v0 : FVec F S32x1024x32x32 .f32 := Host.absf main_arg0
  let main_cst : FVec F S_ .f32 := constant S_ .f32 0x7F800000#32
  let main_v1 : FVec F S32x1024x32x32 .f32 := broadcastInDim S32x1024x32x32 ![] bcast_S_S32x1024x32x32 main_cst
  let main_v2 : IVec S32x1024x32x32 1 := cmpf .olt main_v0 main_v1
  let main_c : IVec S_ 1 := constantI S_ 1 1#1
  let main_v3 : IVec S_ 1 := (fun x v => Host.reduce IntOp.andi x v reducesTo_S32x1024x32x32_S_d0_1_2_3 h_S_) main_v2 main_c
  main_v3
-- ==== Kernel.lean ====
abbrev S32x1024x32x32 : Shape := ⟨4, ![32, 1024, 32, 32]⟩
abbrev S32x1024x1024 : Shape := ⟨3, ![32, 1024, 1024]⟩
abbrev S32x1x1 : Shape := ⟨3, ![32, 1, 1]⟩
abbrev S1x1024x1024 : Shape := ⟨3, ![1, 1024, 1024]⟩
abbrev S1x1x1 : Shape := ⟨3, ![1, 1, 1]⟩
abbrev S1024x1024 : Shape := ⟨2, ![1024, 1024]⟩
abbrev S1024 : Shape := ⟨1, ![1024]⟩
abbrev S1024x1 : Shape := ⟨2, ![1024, 1]⟩
abbrev S1x1 : Shape := ⟨2, ![1, 1]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 11
  | .vmem => 5
  | .smem => 0
  | _ => 0

abbrev bufTy : (tb : Table) → Fin (tcTables nBuf tb) → BufTy
  | .hbm, ⟨0, _⟩ => ⟨S32x1024x32x32, .f32⟩
  | .hbm, ⟨1, _⟩ => ⟨S32x1024x1024, .f32⟩
  | .hbm, ⟨2, _⟩ => ⟨S32x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1, .f32⟩
  | .local _ .vmem, ⟨3, _⟩ => ⟨S1x1x1, .f32⟩
  | .local _ .vmem, ⟨4, _⟩ => ⟨S1024x1024, .bf16⟩
  | _, _ => ⟨S32x1024x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x1024x32x32_S32x1024x1024 : S32x1024x32x32.ShapeCasts S32x1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1024x1024_S256x1024_0_0 : ∀ a, (![0, 0] : Fin 2 → Nat) a + S256x1024.size a ≤ S1024x1024.size a
  h_S256x1024 : 0 < S256x1024.numel
  iota_S256x256_d0_w32 : S256x256.Iotas .tc 32 [0]
  iota_S256x256_d1_w32 : S256x256.Iotas .tc 32 [1]
  reduces_S256x256_S256 : S256x256.Reduces [1] S256
  shapeCasts_S256_S256x1 : S256.ShapeCasts S256x1
  reduces_S256x1_S1 : S256x1.Reduces [0] S1
  shapeCasts_S1_S1x1 : S1.ShapeCasts S1x1
  inb_S1024x1024_S256x1024_256_0 : ∀ a, (![256, 0] : Fin 2 → Nat) a + S256x1024.size a ≤ S1024x1024.size a
  inb_S1024x1024_S256x1024_512_0 : ∀ a, (![512, 0] : Fin 2 → Nat) a + S256x1024.size a ≤ S1024x1024.size a
  inb_S1024x1024_S256x1024_768_0 : ∀ a, (![768, 0] : Fin 2 → Nat) a + S256x1024.size a ≤ S1024x1024.size a
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S32x1x1_S_d0_1_2 : S32x1x1.ReducesTo [0, 1, 2] S_
  h_S_ : 0 < S_.numel
  dot_S256x1024_S256x1024_S256x256_1_1_0_0_n_n_wf : DotDims.WF S256x1024 S256x1024 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1.size a ≤ S32x1x1.size a
  hwx0_1 : ∀ i : grid0.Coords, EltTy.bits .f32 = 32 ∨ (Rect.block (s := S32x1x1) S1x1x1.size (cc0_transform_1 i) (hinb0_1 i)).WholeWords (EltTy.packing .f32)

variable [Facts₀]

def dot_S256x1024_S256x1024_S256x256_1_1_0_0_n_n : DotDims S256x1024 S256x1024 S256x256 where
  lhsContracting := [1]
  rhsContracting := [1]
  lhsNonContracting := [0]
  rhsNonContracting := [0]
  lhsBatch := []
  rhsBatch := []
  wf := dot_S256x1024_S256x1024_S256x256_1_1_0_0_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1024x32x32 : Shape := ⟨4, ![32, 1024, 32, 32]⟩
abbrev S32x1024x1024 : Shape := ⟨3, ![32, 1024, 1024]⟩
abbrev S_ : Shape := ⟨0, ![]⟩
abbrev S32x1024 : Shape := ⟨2, ![32, 1024]⟩
abbrev S32x1024x1 : Shape := ⟨3, ![32, 1024, 1]⟩
abbrev S1024x1024 : Shape := ⟨2, ![1024, 1024]⟩
abbrev S1x1024x1024 : Shape := ⟨3, ![1, 1024, 1024]⟩

abbrev nBuf : Space → Nat
  | .hbm => 42
  | .vmem => 0
  | .smem => 0
  | _ => 0

abbrev bufTy : (tb : Table) → Fin (tcTables nBuf tb) → BufTy
  | .hbm, ⟨0, _⟩ => ⟨S32x1024x32x32, .f32⟩
  | .hbm, ⟨1, _⟩ => ⟨S32x1024x1024, .f32⟩
  | .hbm, ⟨2, _⟩ => ⟨S_, .f32⟩
  | .hbm, ⟨3, _⟩ => ⟨S32x1024, .f32⟩
  | .hbm, ⟨4, _⟩ => ⟨S32x1024x1, .f32⟩
  | .hbm, ⟨5, _⟩ => ⟨S_, .f32⟩
  | .hbm, ⟨6, _⟩ => ⟨S32x1024x1, .f32⟩
  | .hbm, ⟨7, _⟩ => ⟨S32x1024x1, .f32⟩
  | .hbm, ⟨8, _⟩ => ⟨S32x1024x1024, .f32⟩
  | .hbm, ⟨9, _⟩ => ⟨S32x1024x1024, .f32⟩
  | .hbm, ⟨10, _⟩ => ⟨S32x1024x1024, .f32⟩
  | .hbm, ⟨11, _⟩ => ⟨S_, .f32⟩
  | .hbm, ⟨12, _⟩ => ⟨S32x1024, .f32⟩
  | .hbm, ⟨13, _⟩ => ⟨S32x1024x1, .f32⟩
  | .hbm, ⟨14, _⟩ => ⟨S32x1024x1, .f32⟩
  | .hbm, ⟨15, _⟩ => ⟨S_, .f32⟩
  | .hbm, ⟨16, _⟩ => ⟨S32x1024x1, .f32⟩
  | .hbm, ⟨17, _⟩ => ⟨S32x1024x1, .f32⟩
  | .hbm, ⟨18, _⟩ => ⟨S32x1024x1024, .f32⟩
  | .hbm, ⟨19, _⟩ => ⟨S32x1024x1024, .f32⟩
  | .hbm, ⟨20, _⟩ => ⟨S32x1024x1024, .f32⟩
  | .hbm, ⟨21, _⟩ => ⟨S1024x1024, .i32⟩
  | .hbm, ⟨22, _⟩ => ⟨S1024x1024, .i32⟩
  | .hbm, ⟨23, _⟩ => ⟨S_, .i32⟩
  | .hbm, ⟨24, _⟩ => ⟨S1024x1024, .i32⟩
  | .hbm, ⟨25, _⟩ => ⟨S1024x1024, .i32⟩
  | .hbm, ⟨26, _⟩ => ⟨S1024x1024, .i1⟩
  | .hbm, ⟨27, _⟩ => ⟨S1x1024x1024, .i1⟩
  | .hbm, ⟨28, _⟩ => ⟨S_, .f32⟩
  | .hbm, ⟨29, _⟩ => ⟨S_, .f32⟩
  | .hbm, ⟨30, _⟩ => ⟨S32x1024x1024, .i1⟩
  | .hbm, ⟨31, _⟩ => ⟨S32x1024x1024, .f32⟩
  | .hbm, ⟨32, _⟩ => ⟨S32x1024x1024, .f32⟩
  | .hbm, ⟨33, _⟩ => ⟨S32x1024x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S32x1024x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩

abbrev nD : Nat := 1
abbrev τ : Topo := Topo.v7x

variable {F : FTy → Type} [FloatOps F]

class Facts₀ : Prop where
  shapeCasts_S32x1024x32x32_S32x1024x1024 : S32x1024x32x32.ShapeCasts S32x1024x1024
  reducesTo_S32x1024x1024_S32x1024_d2 : S32x1024x1024.ReducesTo [2] S32x1024
  h_S_ : 0 < S_.numel
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S32x1024x1_S32x1024x1024_0_1_2 : S32x1024x1.BroadcastsInDim S32x1024x1024 (![0, 1, 2] : Fin 3 → Fin S32x1024x1024.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  bcast_S_S32x1024x1024 : S_.BroadcastsInDim S32x1024x1024 (![] : Fin 0 → Fin S32x1024x1024.rank)
  reducesTo_S32x1024x1024_S_d0_1_2 : S32x1024x1024.ReducesTo [0, 1, 2] S_
  dot_S32x1024x1024_S32x1024x1024_S32x1024x1024_2_2_1_1_0_0_wf : DotDims.WF S32x1024x1024 S32x1024x1024 S32x1024x1024 [2] [2] [1] [1] [0] [0]

variable [Facts₀]

def dot_S32x1024x1024_S32x1024x1024_S32x1024x1024_2_2_1_1_0_0 : DotDims S32x1024x1024 S32x1024x1024 S32x1024x1024 where
  lhsContracting := [2]
  rhsContracting := [2]
  lhsNonContracting := [1]
  rhsNonContracting := [1]
  lhsBatch := [0]
  rhsBatch := [0]
  wf := dot_S32x1024x1024_S32x1024x1024_S32x1024x1024_2_2_1_1_0_0_wf

class Facts : Prop extends Facts₀ where

variable [Facts]
-- ==== Proof.CorrSpec.lean ====
import Idealize.ShloMosaic.PureOps.Ideal
import Idealize.ShloMosaic.PureOps.Ideal.Laws

/-!
The function both programs compute, written once over plain coordinates on the extended reals.

A batch is a table `X c s` of 1024 rows (channels) of 1024 entries (positions). Each row is centred on its mean and
divided by its Euclidean length plus a small constant; the correlation of two rows is the sum over positions of the
products of their normalised entries; the table of correlations has its diagonal replaced by zero and every entry
replaced by its absolute value; the batch's total is the sum of that table. The result is the sum of the 32 batch
totals divided, in turn, by the number of unordered pairs of rows, by two and by the number of batches.

The divisions, the square root and the constants are the operations and bit patterns of the two programs themselves,
so nothing about them is used beyond their being the same on both sides.
-/

noncomputable section

open scoped BigOperators

namespace Cert.CorrSpec

open Idealize.ShloMosaic

/-- The number of positions of a row, 1024, as both programs write it. -/
def rowLen : EReal := Ideal.ofBits .f32 0x44800000#32
/-- The small constant added to a row's length before dividing by it. -/
def eps : EReal := Ideal.ofBits .f32 0x322BCC77#32
/-- The number of unordered pairs of distinct rows, 1024 · 1023 / 2. -/
def pairs : EReal := Ideal.ofBits .f32 0x48FFC000#32
/-- Two. -/
def two : EReal := Ideal.ofBits .f32 0x40000000#32
/-- The number of batches, 32. -/
def batches : EReal := Ideal.ofBits .f32 0x42000000#32

/-- A row's mean. -/
def mean (r : Fin 1024 → EReal) : EReal := Ideal.div (∑ s, r s) rowLen

/-- A row's entry minus the row's mean. -/
def dev (r : Fin 1024 → EReal) (s : Fin 1024) : EReal := r s - mean r

/-- The length of the centred row, plus the small constant. -/
def scale (r : Fin 1024 → EReal) : EReal := Ideal.sqrt (∑ s, dev r s * dev r s) + eps

/-- The normalised row. -/
def unit (r : Fin 1024 → EReal) (s : Fin 1024) : EReal := Ideal.div (dev r s) (scale r)

/-- The correlation of two rows. -/
def corr (r r' : Fin 1024 → EReal) : EReal := ∑ s, unit r s * unit r' s

/-- The correlation table with its diagonal zeroed. -/
def masked (X : Fin 1024 → Fin 1024 → EReal) (c e : Fin 1024) : EReal :=
  if c = e then 0 else corr (X c) (X e)

/-- An entry of the table of absolute values. -/
def entry (X : Fin 1024 → Fin 1024 → EReal) (c e : Fin 1024) : EReal :=
  max (masked X c e) (-(masked X c e))

/-- The sum of a batch's table. -/
def batchTotal (X : Fin 1024 → Fin 1024 → EReal) : EReal := ∑ c, ∑ e, entry X c e

/-- The result. -/
def avg (X : Fin 32 → Fin 1024 → Fin 1024 → EReal) : EReal :=
  Ideal.div (Ideal.div (Ideal.div (∑ n, batchTotal (X n)) pairs) two) batches

/-- A product of two entries does not depend on their order, so neither does a correlation. -/
theorem corr_comm (r r' : Fin 1024 → EReal) : corr r r' = corr r' r :=
  Finset.sum_congr rfl fun s _ => mul_comm _ _

theorem masked_comm (X : Fin 1024 → Fin 1024 → EReal) (c e : Fin 1024) : masked X c e = masked X e c := by
  unfold masked
  by_cases h : c = e
  · rw [if_pos h, if_pos h.symm]
  · rw [if_neg h, if_neg (fun h' => h h'.symm), corr_comm]

/-- The table of absolute values is symmetric. -/
theorem entry_comm (X : Fin 1024 → Fin 1024 → EReal) (c e : Fin 1024) : entry X c e = entry X e c := by
  unfold entry; rw [masked_comm]

end Cert.CorrSpec

end
-- ==== Proof.RefIsSpec.lean ====
import proofs.«135145_j74277164417490_2_alg».proof.Proof.Gen.ReferenceIdeal.Read
import proofs.«135145_j74277164417490_2_alg».proof.Proof.CorrSpec
import Idealize.ShloMosaic.Lib.ValueIdx
import Idealize.ShloMosaic.PureOps.Ideal.Laws

/-!
The reference computes the specification.

The reference program is read one operation at a time (the generated module gives each operation's value at an index).
Here every such value is read at explicit coordinates: batch n, rows c and e, position s. Going up the program: the row
sums, the row means, the centred entries, the sums of squares, the row lengths plus the small constant, the normalised
entries, the correlations, the diagonal mask, the absolute values, and the total over all coordinates, which is the
triple sum over batches, rows and rows. The three trailing divisions are then the specification's.
-/

noncomputable section

open scoped BigOperators

namespace Cert.ReferenceIdeal.RefValue

open Cert.ReferenceIdeal Cert.ReferenceIdeal.Gen Cert.ReferenceIdeal.Read Idealize.ShloMosaic Idealize.ShloMosaic.ValueIdx

/-! ## A rank-3 index set is the product of its three coordinate ranges -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The program's index functions at coordinates -/

theorem idx_v1 (n : Fin 32) (c k : Fin 1024) : idx_main_v1 (ix2 n c) k = ix3 n c k := funext fun a => Fin.ext (by match a with | ⟨0, _⟩ => rfl | ⟨1, _⟩ => rfl | ⟨2, _⟩ => rfl)
theorem idx_v2 (n : Fin 32) (c : Fin 1024) : idx_main_v2 (ix3 n c (0 : Fin 1)) = ix2 n c := funext fun a => Fin.ext (by match a with | ⟨0, _⟩ => rfl | ⟨1, _⟩ => rfl)
theorem idx_v5 (n : Fin 32) (c s : Fin 1024) : idx_main_v5 (ix3 n c s) = ix3 n c (0 : Fin 1) := funext fun a => Fin.ext (by match a with | ⟨0, _⟩ => rfl | ⟨1, _⟩ => rfl | ⟨2, _⟩ => rfl)
theorem idx_c0v1 (n : Fin 32) (c k : Fin 1024) : idx_main_call0_v1 (ix2 n c) k = ix3 n c k := funext fun a => Fin.ext (by match a with | ⟨0, _⟩ => rfl | ⟨1, _⟩ => rfl | ⟨2, _⟩ => rfl)
theorem idx_c0v2 (n : Fin 32) (c : Fin 1024) : idx_main_call0_v2 (ix3 n c (0 : Fin 1)) = ix2 n c := funext fun a => Fin.ext (by match a with | ⟨0, _⟩ => rfl | ⟨1, _⟩ => rfl)
theorem idx_v10 (n : Fin 32) (c s : Fin 1024) : idx_main_v10 (ix3 n c s) = ix3 n c (0 : Fin 1) := funext fun a => Fin.ext (by match a with | ⟨0, _⟩ => rfl | ⟨1, _⟩ => rfl | ⟨2, _⟩ => rfl)
theorem lidx_v12 (n : Fin 32) (c e k : Fin 1024) : lidx_main_v12 (ix3 n c e) k = ix3 n c k := funext fun a => Fin.ext (by match a with | ⟨0, _⟩ => rfl | ⟨1, _⟩ => rfl | ⟨2, _⟩ => rfl)
theorem ridx_v12 (n : Fin 32) (c e k : Fin 1024) : ridx_main_v12 (ix3 n c e) k = ix3 n e k := funext fun a => Fin.ext (by match a with | ⟨0, _⟩ => rfl | ⟨1, _⟩ => rfl | ⟨2, _⟩ => rfl)
theorem idx_c1v1 (n : Fin 32) (c e : Fin 1024) : idx_main_call1_v1 (ix3 n c e) = ix3 (0 : Fin 1) c e := funext fun a => Fin.ext (by match a with | ⟨0, _⟩ => rfl | ⟨1, _⟩ => rfl | ⟨2, _⟩ => rfl)
theorem idx_v18 (c e : Fin 1024) : idx_main_v18 (ix3 (0 : Fin 1) c e) = ix2 c e := funext fun a => Fin.ext (by match a with | ⟨0, _⟩ => rfl | ⟨1, _⟩ => rfl)

/-! ## The table the program reads -/

/-- Batch n's table: the reshaped argument at coordinates. -/
def tab (x0 : (⟨S32x1024x32x32, .f32⟩ : BufTy).Contents (Elt Ideal)) (n : Fin 32) (c s : Fin 1024) : EReal :=
  val_main_v0 (F := Ideal) x0 (ix3 n c s)

/-- A row's sum: the initial value is zero. -/
theorem rowSum_eq (x0 : (⟨S32x1024x32x32, .f32⟩ : BufTy).Contents (Elt Ideal)) (n : Fin 32) (c : Fin 1024) :
    val_main_v1 (F := Ideal) x0 (ix2 n c) = ∑ s, tab x0 n c s := by
  rw [val_main_v1_apply, val_main_cst_apply, Ideal.ofBits_def, Ideal.ofBits_zero_f32, zero_add]
  refine Finset.sum_congr rfl fun k _ => ?_
  rw [idx_v1]; rfl

/-- A row's mean. -/
theorem mean_eq (x0 : (⟨S32x1024x32x32, .f32⟩ : BufTy).Contents (Elt Ideal)) (n : Fin 32) (c : Fin 1024) :
    val_main_v4 (F := Ideal) x0 (ix3 n c (0 : Fin 1)) = CorrSpec.mean (tab x0 n c) := by
  rw [val_main_v4_apply, val_main_v2_apply, idx_v2, rowSum_eq, val_main_v3_apply, val_main_cst_0_apply,
    Ideal.hostDivf_def, Ideal.ofBits_def]
  rfl

/-- A centred entry. -/
theorem dev_eq (x0 : (⟨S32x1024x32x32, .f32⟩ : BufTy).Contents (Elt Ideal)) (n : Fin 32) (c s : Fin 1024) :
    val_main_v6 (F := Ideal) x0 (ix3 n c s) = CorrSpec.dev (tab x0 n c) s := by
  rw [val_main_v6_apply, val_main_v5_apply, idx_v5, mean_eq, Ideal.subf_def]
  rfl

/-- A centred row's sum of squares: the initial value is zero. -/
theorem sqSum_eq (x0 : (⟨S32x1024x32x32, .f32⟩ : BufTy).Contents (Elt Ideal)) (n : Fin 32) (c : Fin 1024) :
    val_main_call0_v1 (F := Ideal) x0 (ix2 n c) = ∑ s, CorrSpec.dev (tab x0 n c) s * CorrSpec.dev (tab x0 n c) s := by
  rw [val_main_call0_v1_apply, val_main_call0_cst_apply, Ideal.ofBits_def, Ideal.ofBits_zero_f32, zero_add]
  refine Finset.sum_congr rfl fun k _ => ?_
  rw [idx_c0v1, val_main_call0_v0_apply, dev_eq, Ideal.mulf_def]

/-- A centred row's length plus the small constant. -/
theorem scale_eq (x0 : (⟨S32x1024x32x32, .f32⟩ : BufTy).Contents (Elt Ideal)) (n : Fin 32) (c : Fin 1024) :
    val_main_v9 (F := Ideal) x0 (ix3 n c (0 : Fin 1)) = CorrSpec.scale (tab x0 n c) := by
  rw [val_main_v9_apply, val_main_v7_apply, val_main_call0_v2_apply, idx_c0v2, sqSum_eq, val_main_v8_apply,
    val_main_cst_1_apply, Ideal.addf_def, Ideal.hostUnary_sqrt_def, Ideal.ofBits_def]
  rfl

/-- A normalised entry. -/
theorem unit_eq (x0 : (⟨S32x1024x32x32, .f32⟩ : BufTy).Contents (Elt Ideal)) (n : Fin 32) (c s : Fin 1024) :
    val_main_v11 (F := Ideal) x0 (ix3 n c s) = CorrSpec.unit (tab x0 n c) s := by
  rw [val_main_v11_apply, dev_eq, val_main_v10_apply, idx_v10, scale_eq, Ideal.hostDivf_def]
  rfl

/-- A correlation of two rows of a batch. -/
theorem corr_eq (x0 : (⟨S32x1024x32x32, .f32⟩ : BufTy).Contents (Elt Ideal)) (n : Fin 32) (c e : Fin 1024) :
    val_main_v12 (F := Ideal) x0 (ix3 n c e) = CorrSpec.corr (tab x0 n c) (tab x0 n e) := by
  rw [val_main_v12_apply]
  refine Finset.sum_congr rfl fun k _ => ?_
  rw [lidx_v12, ridx_v12, unit_eq, unit_eq]

/-! ## The diagonal mask -/

/-- Two row numbers written as 32-bit words are the same word exactly when they are the same row. -/
theorem word_eq_iff (c e : Fin 1024) : BitVec.ofNat 32 c.val = BitVec.ofNat 32 e.val ↔ c = e := by
  constructor
  · intro h
    have h' := congrArg BitVec.toNat h
    simp only [BitVec.toNat_ofNat] at h'
    have hc := c.isLt
    have he := e.isLt
    exact Fin.ext (by omega)
  · rintro rfl; rfl

/-- The mask's bit at rows c and e is set exactly on the diagonal. -/
theorem cond_eq (n : Fin 32) (c e : Fin 1024) :
    val_main_call1_v1 (F := Ideal) (ix3 n c e) = if c = e then 1#1 else 0#1 := by
  rw [val_main_call1_v1_apply, idx_c1v1, val_main_v18_apply, idx_v18, val_main_v17_apply, val_main_v16_apply,
    val_main_v13_apply, val_main_v14_apply, val_main_v15_apply, val_main_c_apply]
  show BitVec.ofBool (BitVec.ofNat 32 c.val + 0#32 == BitVec.ofNat 32 e.val) = _
  rw [BitVec.add_zero]
  by_cases h : c = e
  · subst h; rw [if_pos rfl, beq_self_eq_true]; rfl
  · rw [if_neg h]
    have hw : ¬ BitVec.ofNat 32 c.val = BitVec.ofNat 32 e.val := fun hw => h ((word_eq_iff c e).mp hw)
    rw [beq_false_of_ne hw]; rfl

/-- A correlation with the diagonal replaced by zero. -/
theorem masked_eq (x0 : (⟨S32x1024x32x32, .f32⟩ : BufTy).Contents (Elt Ideal)) (n : Fin 32) (c e : Fin 1024) :
    val_main_v19 (F := Ideal) x0 (ix3 n c e) = CorrSpec.masked (tab x0 n) c e := by
  rw [val_main_v19_apply, cond_eq, val_main_call1_v2_apply, val_main_call1_v0_apply, val_main_cst_2_apply,
    Ideal.ofBits_def, Ideal.ofBits_zero_f32, corr_eq]
  unfold CorrSpec.masked
  by_cases h : c = e
  · rw [if_pos h, if_pos h, select_one]
  · rw [if_neg h, if_neg h, select_zero]

/-- An entry of the table of absolute values. -/
theorem entry_eq (x0 : (⟨S32x1024x32x32, .f32⟩ : BufTy).Contents (Elt Ideal)) (n : Fin 32) (c e : Fin 1024) :
    val_main_v20 (F := Ideal) x0 (ix3 n c e) = CorrSpec.entry (tab x0 n) c e := by
  rw [val_main_v20_apply, masked_eq, Ideal.hostAbsf_def, Ideal.absf_def]
  rfl

/-! ## The total and the result -/

/-- The sum over every coordinate is the sum of the batch totals: the initial value is zero. -/
theorem total_eq (x0 : (⟨S32x1024x32x32, .f32⟩ : BufTy).Contents (Elt Ideal)) (i : S_.Idx) :
    val_main_v21 (F := Ideal) x0 i = ∑ n, CorrSpec.batchTotal (tab x0 n) := by
  rw [val_main_v21_apply, val_main_cst_3_apply, Ideal.ofBits_def, Ideal.ofBits_zero_f32, zero_add, sum_idx3]
  refine Finset.sum_congr rfl fun n _ => ?_
  unfold CorrSpec.batchTotal
  exact Finset.sum_congr rfl fun c _ => Finset.sum_congr rfl fun e _ => entry_eq x0 n c e

/-- The reference's result is the specification of the table it reads. -/
theorem result_eq (x0 : (⟨Cert.ReferenceIdeal.S32x1024x32x32, .f32⟩ : BufTy).Contents (Elt Ideal)) (i : Cert.ReferenceIdeal.S_.Idx) :
    Cert.ReferenceIdeal.Read.val_main_v24 (F := Ideal) x0 i
      = Cert.CorrSpec.avg (fun n c s => Cert.ReferenceIdeal.Read.val_main_v0 (F := Ideal) x0 (Idealize.ShloMosaic.ValueIdx.ix3 n c s)) := by
  rw [val_main_v24_apply, val_main_v23_apply, val_main_v22_apply, total_eq, val_main_cst_4_apply, val_main_cst_5_apply,
    val_main_cst_6_apply, Ideal.hostDivf_def, Ideal.hostDivf_def, Ideal.hostDivf_def, Ideal.ofBits_def, Ideal.ofBits_def,
    Ideal.ofBits_def]
  rfl

end Cert.ReferenceIdeal.RefValue

end
-- ==== Proof.TileOps.lean ====
/-
The value one grid point stores, in a uniform vocabulary.

The body's arithmetic after the normalisation is ten copies of one pattern: take two tiles of 256 normalised rows,
form the 256 × 256 table of their rows' inner products, on a diagonal pair replace the tile's own diagonal by zero,
take absolute values, sum each row, sum the row sums, weight the result by one (a diagonal pair) or two (a pair above
the diagonal) and add it to the running total, which starts at zero. This module names the pieces of that pattern once,
for any float instance, and states the stored value as the chain of the ten weighted sums.
-/
import proofs.«135145_j74277164417490_2_alg».proof.Proof.Gen.KernelIdeal.Skeleton

set_option maxRecDepth 16384

noncomputable section

open scoped BigOperators
open Idealize.ShloMosaic Idealize.ShloMosaic.TcCoe Idealize.SL.Sem

namespace Cert.KernelIdeal.Corr

open Cert.KernelIdeal Cert.KernelIdeal.Gen

variable {F : FTy → Type} [FloatOps F]

/-- Rows `off 0 … off 0 + 255` of a table of 1024 rows, read through the rectangle a tile load names. -/
def rowsAt (S : FVec F S1024x1024 .bf16) (off : Fin 2 → Nat) (inb : ∀ a, off a + S256x1024.size a ≤ S1024x1024.size a) :
    Vec F S256x1024 .bf16 :=
  fun j => S ((Rect.unit (s := S1024x1024) off ![256, 1024] inb).idx j)

/-- The four tiles of a table. -/
abbrev tile0 (S : FVec F S1024x1024 .bf16) : Vec F S256x1024 .bf16 := rowsAt S ![0, 0] inb_S1024x1024_S256x1024_0_0
abbrev tile1 (S : FVec F S1024x1024 .bf16) : Vec F S256x1024 .bf16 := rowsAt S ![256, 0] inb_S1024x1024_S256x1024_256_0
abbrev tile2 (S : FVec F S1024x1024 .bf16) : Vec F S256x1024 .bf16 := rowsAt S ![512, 0] inb_S1024x1024_S256x1024_512_0
abbrev tile3 (S : FVec F S1024x1024 .bf16) : Vec F S256x1024 .bf16 := rowsAt S ![768, 0] inb_S1024x1024_S256x1024_768_0

/-- The value stored into the output block, from the table `S` the scratch buffer holds: the running total over the
    ten tile pairs (0,0) (0,1) (0,2) (0,3) (1,1) (1,2) (1,3) (2,2) (2,3) (3,3), in that order, as the body's
    own terms spell it. -/
def total (S : FVec F S1024x1024 .bf16) : FVec F S1x1x1 .f32 :=
  k0_pay1
    (k0_pay6
      (k0_pay4 (tile0 S) (k0_pay3 (tile0 S) (tile0 S)) (tile1 S) (tile2 S) (tile3 S))
      (tile1 S) (k0_pay5 (tile1 S) (tile1 S)) (tile2 S) (tile3 S))
    (tile2 S) (k0_pay7 (tile2 S) (tile2 S)) (tile3 S) (tile3 S) (tile3 S)

/-- The table of inner products of the rows of two tiles. -/
def prod (a b : Vec F S256x1024 .bf16) : FVec F S256x256 .f32 :=
  matmul dot_S256x1024_S256x1024_S256x256_1_1_0_0_n_n none a b (constant S256x256 .f32 0x00000000#32)

/-- A 256 × 256 table with its diagonal replaced by zero. -/
def maskDiag (v : FVec F S256x256 .f32) : FVec F S256x256 .f32 :=
  select (cmpi .eq (iota .tc S256x256 32 [0] iota_S256x256_d0_w32) (iota .tc S256x256 32 [1] iota_S256x256_d1_w32))
    (broadcast S256x256 (Scalar.ofBits .f32 0x00000000#32)) v

/-- The sum of each row of a 256 × 256 table. -/
def rowSums (v : FVec F S256x256 .f32) : FVec F S256 .f32 :=
  multiReduction .add [1] S256 v 0x00000000#32 reduces_S256x256_S256 (.inl rfl) rfl

/-- The sum of 256 row sums, as a 1 × 1 table. -/
def sumRows (w : FVec F S256 .f32) : FVec F S1x1 .f32 :=
  shapeCast S1x1 (multiReduction .add [0] S1 (shapeCast S256x1 w shapeCasts_S256_S256x1) 0x00000000#32 reduces_S256x1_S1 (.inl rfl) rfl)
    shapeCasts_S1_S1x1

/-- The sum of the absolute inner products of a pair of distinct tiles. -/
def offSum (a b : Vec F S256x1024 .bf16) : FVec F S1x1 .f32 := sumRows (rowSums (absf (prod a b)))

/-- The same for a tile against itself, its diagonal zeroed. -/
def diagSum (a b : Vec F S256x1024 .bf16) : FVec F S1x1 .f32 := sumRows (rowSums (absf (maskDiag (prod a b))))

/-- The weights and the start of the running total. -/
def wOne : FVec F S1x1 .f32 := broadcast S1x1 (Scalar.ofBits .f32 0x3F800000#32)
def wTwo : FVec F S1x1 .f32 := broadcast S1x1 (Scalar.ofBits .f32 0x40000000#32)
def start : FVec F S1x1 .f32 := broadcast S1x1 (Scalar.ofBits .f32 0x00000000#32)

/-- The running total as a 1 × 1 table. -/
def chain (S : FVec F S1024x1024 .bf16) : FVec F S1x1 .f32 :=
  addf (addf (addf (addf (addf (addf (addf (addf (addf (addf start
    (mulf wOne (diagSum (tile0 S) (tile0 S))))
    (mulf wTwo (offSum (tile0 S) (tile1 S))))
    (mulf wTwo (offSum (tile0 S) (tile2 S))))
    (mulf wTwo (offSum (tile0 S) (tile3 S))))
    (mulf wOne (diagSum (tile1 S) (tile1 S))))
    (mulf wTwo (offSum (tile1 S) (tile2 S))))
    (mulf wTwo (offSum (tile1 S) (tile3 S))))
    (mulf wOne (diagSum (tile2 S) (tile2 S))))
    (mulf wTwo (offSum (tile2 S) (tile3 S))))
    (mulf wOne (diagSum (tile3 S) (tile3 S)))

/-- The stored value is the running total, given the block's leading unit axis. -/
theorem total_eq (S : FVec F S1024x1024 .bf16) : total S = shapeCast S1x1x1 (chain S) shapeCasts_S1x1_S1x1x1 := rfl

end Cert.KernelIdeal.Corr

end
-- ==== Proof.KernelPiece.lean ====
/-
What one grid point leaves in the output block, as one pure term of the input block.

The body first writes the table of normalised rows into its scratch buffer, then reads that buffer back ten times in
tiles of 256 rows. A read of rows `o … o + 255` after the one store that covers the whole buffer is those rows of the
stored table, so the single value the body stores into the output block is a fixed expression in the four row tiles of
the normalised table — and in nothing else: not the grid position, not what the scratch buffer held before.
-/
import proofs.«135145_j74277164417490_2_alg».proof.Proof.Gen.KernelIdeal.Frame
import proofs.«135145_j74277164417490_2_alg».proof.Proof.TileOps
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Corr

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The output block after the body, on any whole staging buffers and from any scratch contents: the total over the
    tiles of the normalised table of the input block `x`. -/
theorem out_eq (c : Dev nD) (i : grid0.Coords) (a1 : Memref sig .tc .vmem S1x1024x1024 .f32) (h1 : a1.IsWhole)
    (a2 : Memref sig .tc .vmem S1x1x1 .f32) (h2 : a2.IsWhole) (a3 : Memref sig .tc .vmem S1024x1024 .bf16) (h3 : a3.IsWhole)
    (x : Vec F S1x1024x1024 .f32) :
    out0_A_1 c i a1 h1 a2 h2 a3 h3 x = total (k0_pay2 x) := by
  unfold out0_A_1
  rw [View.read_writes_eq_canon _ _ _ (cover0_A_1 c i a1 h1 a2 h2 a3 h3 x)]
  unfold kernelRun0_A
  dsimp only
  sl_unfold_words
  rw [View.canon_unit_zero hz3]
  simp only [View.readCov_eq_canon', View.canon_unit_zero (S := S1024x1024) hz2, View.readAt_eq_ld, h1.read_unread,
    View.ld_unit_zero (S := S1x1024x1024) hz3]
  generalize k0_pay2 x = S
  unfold total tile0 tile1 tile2 tile3 rowsAt
  rfl

end Cert.KernelIdeal.Corr

end
-- ==== Proof.TileRead.lean ====
/-
The tile operations read at an index, on the extended reals.

With floats read as extended reals a tile of rows is those rows of the table, the product of two tiles at (p, q) is the
sum over positions of the products of row p of the first and row q of the second, masking the diagonal is an `if` on
p = q, the absolute value is the larger of a number and its negative, and the two reductions are a double sum over the
256 × 256 entries. The weights' bit patterns denote one and two, the start of the running total zero.
-/
import proofs.«135145_j74277164417490_2_alg».proof.Proof.TileOps
import Idealize.ShloMosaic.Lib.Pipeline.Value
import Idealize.ShloMosaic.Lib.ValueIdx
import Idealize.ShloMosaic.Lib.Affine
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.KernelIdeal.Corr

open Cert.KernelIdeal Cert.KernelIdeal.Gen

variable {F : FTy → Type} [FloatOps F]

/-- The bit pattern of `1.0` denotes one, -/
theorem ofBits_one : Ideal.ofBits .f32 0x3F800000#32 = 1 := by
  simp [Ideal.ofBits, Ideal.ieee, -EReal.coe_mul]; norm_num

/-- and that of `2.0` two. -/
theorem ofBits_two : Ideal.ofBits .f32 0x40000000#32 = 2 := by
  simp [Ideal.ofBits, Ideal.ieee, -EReal.coe_mul]; norm_num; rfl

/-- Row `p` of the tile starting at row `o` is row `o + p` of the table. -/
theorem rowsAt_apply (S : FVec Ideal S1024x1024 .bf16) (o : Nat)
    (inb : ∀ a, (![o, 0] : Fin 2 → Nat) a + S256x1024.size a ≤ S1024x1024.size a) (p : Fin 256) (s : Fin 1024)
    (h : o + p.val < 1024) :
    rowsAt S ![o, 0] inb (ix2 p s) = S (ix2 ⟨o + p.val, h⟩ s) := by
  unfold rowsAt
  refine congrArg S (funext fun a => Fin.ext ?_)
  match a with
  | ⟨0, _⟩ => show o + 1 * p.val = o + p.val; omega
  | ⟨1, _⟩ => show 0 + 1 * s.val = s.val; omega

/-- The dimension numbers of the tile product: both operands contracted along their positions. -/
abbrev DD : DotDims S256x1024 S256x1024 S256x256 := dot_S256x1024_S256x1024_S256x256_1_1_0_0_n_n

theorem lhs0 (i : S256x256.Idx) (k : DD.contr.Idx) : (DD.lhsIdx i k 0).val = (i 0).val := by
  unfold DotDims.lhsIdx
  rw [dif_neg (show ¬(0 : Fin S256x1024.rank) ∈ DD.lhsBatch by decide),
    dif_pos (show (0 : Fin S256x1024.rank) ∈ DD.lhsNonContracting by decide)]
  rfl

theorem rhs0 (i : S256x256.Idx) (k : DD.contr.Idx) : (DD.rhsIdx i k 0).val = (i 1).val := by
  unfold DotDims.rhsIdx
  rw [dif_neg (show ¬(0 : Fin S256x1024.rank) ∈ DD.rhsBatch by decide),
    dif_pos (show (0 : Fin S256x1024.rank) ∈ DD.rhsNonContracting by decide)]
  rfl

/-- The product of two tiles at (p, q): the inner product of row p of the first and row q of the second. -/
theorem prod_apply (a b : FVec Ideal S256x1024 .bf16) (p q : Fin 256) :
    prod (F := Ideal) a b (ix2 p q) = ∑ s : Fin 1024, a (ix2 p s) * b (ix2 q s) := by
  unfold prod
  simp only [matmul]
  rw [Ideal.matmul_constant_zero_apply, ← Equiv.sum_comp (contrEquiv1 DD 1024 rfl rfl).symm]
  refine Finset.sum_congr rfl fun k _ => ?_
  have hk := contrEquiv1_symm_val DD 1024 rfl rfl k
  have el : DD.lhsIdx (ix2 p q) ((contrEquiv1 DD 1024 rfl rfl).symm k) = ix2 p k := funext fun a => Fin.ext (by
    match a with
    | ⟨0, _⟩ => exact lhs0 _ _
    | ⟨1, _⟩ => exact (DD.lhsIdx_val_of_single rfl _ _).trans hk)
  have er : DD.rhsIdx (ix2 p q) ((contrEquiv1 DD 1024 rfl rfl).symm k) = ix2 q k := funext fun a => Fin.ext (by
    match a with
    | ⟨0, _⟩ => exact rhs0 _ _
    | ⟨1, _⟩ => exact (DD.rhsIdx_val_of_single rfl _ _).trans hk)
  rw [el, er]

/-- Masking the diagonal at (p, q). -/
theorem maskDiag_apply (v : FVec Ideal S256x256 .f32) (p q : Fin 256) :
    maskDiag (F := Ideal) v (ix2 p q) = if p = q then 0 else v (ix2 p q) := by
  unfold maskDiag
  rw [select_apply]
  show Scalar.select (IntOp.cmpi .eq (iota .tc S256x256 32 [0] iota_S256x256_d0_w32 (ix2 p q))
    (iota .tc S256x256 32 [1] iota_S256x256_d1_w32 (ix2 p q))) (Ideal.ofBits .f32 0x00000000#32) (v (ix2 p q)) = _
  rw [iota_single_apply, iota_single_apply, Ideal.ofBits_zero_f32]
  show Scalar.select (IntOp.cmpi .eq (BitVec.ofNat 32 p.val) (BitVec.ofNat 32 q.val)) 0 (v (ix2 p q)) = _
  by_cases h : p = q
  · subst h
    rw [if_pos rfl, IntOp.cmpi_eq.mpr rfl, select_one]
  · rw [if_neg h]
    have hne : ¬IntOp.cmpi .eq (BitVec.ofNat 32 p.val) (BitVec.ofNat 32 q.val) = 1#1 := fun hc => by
      have e := IntOp.cmpi_eq.mp hc
      have e' := congrArg BitVec.toNat e
      simp only [BitVec.toNat_ofNat] at e'
      have hp := p.isLt; have hq := q.isLt
      exact h (Fin.ext (by omega))
    rw [eq_zero_of_ne_one hne, select_zero]

/-- The row sums at row p. -/
theorem rowSums_apply (v : FVec Ideal S256x256 .f32) (p : Fin 256) :
    rowSums (F := Ideal) v (ix1 p) = ∑ q : Fin 256, v (ix2 p q) := by
  unfold rowSums
  refine (Ideal.multiReduction_add_single v 0x00000000#32 reduces_S256x256_S256 (.inl rfl) rfl (ix1 p)).trans ?_
  refine Finset.sum_congr rfl fun q _ => congrArg v (funext fun a => Fin.ext ?_)
  match a with
  | ⟨0, _⟩ => rfl
  | ⟨1, _⟩ => rfl

/-- The sum of the row sums, at the one entry of the 1 × 1 table. -/
theorem sumRows_apply (w : FVec Ideal S256 .f32) :
    sumRows (F := Ideal) w (ix2 (0 : Fin 1) (0 : Fin 1)) = ∑ p : Fin 256, w (ix1 p) := by
  unfold sumRows
  rw [shapeCast_apply _ shapeCasts_S1_S1x1 (ix2 (0 : Fin 1) (0 : Fin 1)) (ix1 (0 : Fin 1)) (by decide)]
  refine (Ideal.multiReduction_add_single _ 0x00000000#32 reduces_S256x1_S1 (.inl rfl) rfl (ix1 (0 : Fin 1))).trans ?_
  refine Finset.sum_congr rfl fun p _ => ?_
  refine shapeCast_apply w shapeCasts_S256_S256x1 _ (ix1 p) ?_
  rw [Shape.rowMajor_val_one, Shape.rowMajor_val_two]
  show p.val = p.val * 1 + 0
  omega

/-- The sum of absolute inner products over a pair of tiles. -/
theorem offSum_apply (a b : FVec Ideal S256x1024 .bf16) :
    offSum (F := Ideal) a b (ix2 (0 : Fin 1) (0 : Fin 1))
      = ∑ p : Fin 256, ∑ q : Fin 256,
          max (∑ s : Fin 1024, a (ix2 p s) * b (ix2 q s)) (-(∑ s : Fin 1024, a (ix2 p s) * b (ix2 q s))) := by
  unfold offSum
  rw [sumRows_apply]
  refine Finset.sum_congr rfl fun p _ => ?_
  rw [rowSums_apply]
  refine Finset.sum_congr rfl fun q _ => ?_
  show FloatOps.absf (prod (F := Ideal) a b (ix2 p q)) = _
  rw [Ideal.absf_def, prod_apply]

/-- The same over a tile against itself, the diagonal zeroed. -/
theorem diagSum_apply (a b : FVec Ideal S256x1024 .bf16) :
    diagSum (F := Ideal) a b (ix2 (0 : Fin 1) (0 : Fin 1))
      = ∑ p : Fin 256, ∑ q : Fin 256,
          max (if p = q then 0 else ∑ s : Fin 1024, a (ix2 p s) * b (ix2 q s))
            (-(if p = q then 0 else ∑ s : Fin 1024, a (ix2 p s) * b (ix2 q s))) := by
  unfold diagSum
  rw [sumRows_apply]
  refine Finset.sum_congr rfl fun p _ => ?_
  rw [rowSums_apply]
  refine Finset.sum_congr rfl fun q _ => ?_
  show FloatOps.absf (maskDiag (F := Ideal) (prod (F := Ideal) a b) (ix2 p q)) = _
  rw [Ideal.absf_def, maskDiag_apply, prod_apply]

end Cert.KernelIdeal.Corr

end
-- ==== Proof.NormRead.lean ====
/-
The table of normalised rows, read at an index on the extended reals.

The first part of the body centres every row of the input block on its mean and divides it by its length plus a small
constant. Read at row c and position s, with floats as extended reals (a change of float format is then the identity),
that is the specification's normalised row: the same sums, the same divisions, the same square root and the same two
constants, in the same order.
-/
import proofs.«135145_j74277164417490_2_alg».proof.Proof.Gen.KernelIdeal.Skeleton
import proofs.«135145_j74277164417490_2_alg».proof.Proof.CorrSpec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.KernelIdeal.Corr

open Cert.KernelIdeal Cert.KernelIdeal.Gen

variable {F : FTy → Type} [FloatOps F]

/-- Each row minus its mean. -/
def centred (v : FVec F S1024x1024 .f32) : FVec F S1024x1024 .f32 :=
  subf v (broadcastTo S1024x1024
    (divf (shapeCast S1024x1 (multiReduction .add [1] S1024 v 0x00000000#32 reduces_S1024x1024_S1024 (.inl rfl) rfl) shapeCasts_S1024_S1024x1)
      (broadcast S1024x1 (Scalar.ofBits .f32 0x44800000#32)))
    broadcasts_S1024x1_S1024x1024)

/-- Each row's length plus the small constant, as a column. -/
def lengthPlus (v : FVec F S1024x1024 .f32) : FVec F S1024x1 .f32 :=
  addf (sqrt (shapeCast S1024x1 (multiReduction .add [1] S1024 (mulf v v) 0x00000000#32 reduces_S1024x1024_S1024 (.inl rfl) rfl) shapeCasts_S1024_S1024x1))
    (broadcast S1024x1 (Scalar.ofBits .f32 0x322BCC77#32))

/-- The table the body stores into its scratch buffer. -/
def normTable (x : Vec F S1x1024x1024 .f32) : FVec F S1024x1024 .bf16 :=
  shapeCast S1024x1024
    (truncf .bf16
      (divf (centred (shapeCast S1024x1024 x shapeCasts_S1x1024x1024_S1024x1024))
        (broadcastTo S1024x1024 (lengthPlus (centred (shapeCast S1024x1024 x shapeCasts_S1x1024x1024_S1024x1024))) broadcasts_S1024x1_S1024x1024))
      bitsLt_bf16_f32)
    shapeCasts_S1024x1024_S1024x1024

theorem pay2_eq (x : Vec F S1x1024x1024 .f32) : k0_pay2 x = normTable x := rfl

/-- A column made of a vector of row values, at row c. -/
theorem colCast_apply (w : FVec Ideal S1024 .f32) (c : Fin 1024) :
    shapeCast S1024x1 w shapeCasts_S1024_S1024x1 (ix2 c (0 : Fin 1)) = w (ix1 c) := by
  refine shapeCast_apply w shapeCasts_S1024_S1024x1 _ (ix1 c) ?_
  rw [Shape.rowMajor_val_one, Shape.rowMajor_val_two]
  show c.val = c.val * 1 + 0
  omega

/-- A column repeated along every row, at (c, s). -/
theorem rowBcast_apply (w : FVec Ideal S1024x1 .f32) (c s : Fin 1024) :
    broadcastTo S1024x1024 w broadcasts_S1024x1_S1024x1024 (ix2 c s) = w (ix2 c (0 : Fin 1)) := by
  refine broadcastTo_apply w broadcasts_S1024x1_S1024x1024 _ (ix2 c (0 : Fin 1)) fun a => ?_
  match a with
  | ⟨0, _⟩ => show c.val = if (1024 : Nat) = 1 then 0 else c.val; rw [if_neg (by decide)]
  | ⟨1, _⟩ => show 0 = if (1 : Nat) = 1 then 0 else s.val; rw [if_pos rfl]

/-- The sum of row c. -/
theorem rowSum_apply (v : FVec Ideal S1024x1024 .f32) (c : Fin 1024) :
    multiReduction .add [1] S1024 v 0x00000000#32 reduces_S1024x1024_S1024 (.inl rfl) rfl (ix1 c) = ∑ s : Fin 1024, v (ix2 c s) := by
  refine (Ideal.multiReduction_add_single v 0x00000000#32 reduces_S1024x1024_S1024 (.inl rfl) rfl (ix1 c)).trans ?_
  refine Finset.sum_congr rfl fun s _ => congrArg v (funext fun a => Fin.ext ?_)
  match a with
  | ⟨0, _⟩ => rfl
  | ⟨1, _⟩ => rfl

/-- The block without its leading unit axis, at (c, s). -/
theorem dropUnit_apply (x : FVec Ideal S1x1024x1024 .f32) (c s : Fin 1024) :
    shapeCast S1024x1024 x shapeCasts_S1x1024x1024_S1024x1024 (ix2 c s) = x (ix3 (0 : Fin 1) c s) := by
  refine shapeCast_apply x shapeCasts_S1x1024x1024_S1024x1024 _ (ix3 (0 : Fin 1) c s) ?_
  rw [Shape.rowMajor_val_three, Shape.rowMajor_val_two]
  show (0 * 1024 + c.val) * 1024 + s.val = c.val * 1024 + s.val
  omega

/-- A centred entry is the specification's deviation of the row. -/
theorem centred_apply (v : FVec Ideal S1024x1024 .f32) (c s : Fin 1024) :
    centred (F := Ideal) v (ix2 c s) = Cert.CorrSpec.dev (fun s' => v (ix2 c s')) s := by
  unfold centred Cert.CorrSpec.dev Cert.CorrSpec.mean Cert.CorrSpec.rowLen
  rw [subf_apply, rowBcast_apply, divf_apply, colCast_apply, rowSum_apply]
  rfl

/-- The column of lengths at row c is the specification's scale of the row. -/
theorem lengthPlus_apply (v : FVec Ideal S1024x1024 .f32) (c : Fin 1024) :
    lengthPlus (F := Ideal) v (ix2 c (0 : Fin 1))
      = Ideal.sqrt (∑ s : Fin 1024, v (ix2 c s) * v (ix2 c s)) + Cert.CorrSpec.eps := by
  unfold lengthPlus Cert.CorrSpec.eps
  rw [addf_apply]
  show Ideal.sqrt (shapeCast S1024x1 _ shapeCasts_S1024_S1024x1 (ix2 c (0 : Fin 1))) + _ = _
  rw [colCast_apply, rowSum_apply]
  rfl

/-- The stored table at (c, s) is the specification's normalised row c of the block at position s. -/
theorem normTable_apply (x : FVec Ideal S1x1024x1024 .f32) (c s : Fin 1024) :
    normTable (F := Ideal) x (ix2 c s) = Cert.CorrSpec.unit (fun s' => x (ix3 (0 : Fin 1) c s')) s := by
  unfold normTable
  rw [shapeCast_self, truncf_apply, divf_apply, rowBcast_apply, lengthPlus_apply, centred_apply]
  unfold Cert.CorrSpec.unit Cert.CorrSpec.scale
  simp only [centred_apply, dropUnit_apply]

end Cert.KernelIdeal.Corr

end
-- ==== Proof.BlockSum.lean ====
import Mathlib.Data.EReal.Inv
import Mathlib.Algebra.BigOperators.Fin
import Mathlib.Algebra.BigOperators.Group.Finset.Basic
import Mathlib.Logic.Equiv.Fin.Basic

/-!
# The sum of a symmetric 1024 × 1024 table of extended reals, by 256 × 256 blocks

A table f : Fin 1024 → Fin 1024 → EReal is cut into a 4 × 4 grid of blocks of side 256;
blk f i j is the sum of the entries of block (i, j).

* sum_rows: a sum over Fin 1024 is the sum over the four blocks of rows of the sums
  over the 256 rows of each block (row i p = 256 * i + p).
* two_mul_ereal: 2 * x = x + x for every extended real x.  The extended reals are not a
  semiring (multiplication does not distribute over addition, because ⊤ + ⊥ = ⊥), so
  this is proved by the three cases x = ⊥, x real, x = ⊤.
* triangle_sum: for a symmetric table, the sum of all entries equals the sum over the
  upper triangle of blocks, the diagonal blocks counted once and the blocks above the
  diagonal counted twice.

Only the facts that (EReal, +) is a commutative monoid and that 1 * x = x, 0 + x = x,
2 * x = x + x are used.
-/

open scoped BigOperators

namespace Cert.BlockSum

/-- Row p of block i of a table with 1024 rows cut into four blocks of 256. -/
def row (i : Fin 4) (p : Fin 256) : Fin 1024 := ⟨256 * i.val + p.val, by omega⟩

/-- The sum of block (i, j) of a 1024 × 1024 table. -/
noncomputable def blk (f : Fin 1024 → Fin 1024 → EReal) (i j : Fin 4) : EReal :=
  ∑ p : Fin 256, ∑ q : Fin 256, f (row i p) (row j q)

/-- The pair (i, p) ↦ 256 * i + p is the standard bijection Fin 4 × Fin 256 ≃ Fin 1024. -/
theorem finProdFinEquiv_eq_row (x : Fin 4 × Fin 256) :
    (finProdFinEquiv x : Fin (4 * 256)) = row x.1 x.2 := by
  apply Fin.ext
  show x.2.val + 256 * x.1.val = 256 * x.1.val + x.2.val
  omega

/-- A sum over the 1024 rows, block of rows by block of rows. -/
theorem sum_rows (g : Fin 1024 → EReal) :
    ∑ c, g c = ∑ i : Fin 4, ∑ p : Fin 256, g (row i p) := by
  have h := Equiv.sum_comp (finProdFinEquiv : Fin 4 × Fin 256 ≃ Fin (4 * 256)) g
  rw [Fintype.sum_prod_type] at h
  rw [← h]
  refine Finset.sum_congr rfl fun i _ => Finset.sum_congr rfl fun p _ => ?_
  rw [finProdFinEquiv_eq_row]

/-- Doubling an extended real: there is no distributivity, so the three cases are
checked separately. -/
theorem two_mul_ereal (x : EReal) : (2 : EReal) * x = x + x := by
  have h2 : (0 : EReal) < 2 := by norm_num
  induction x with
  | bot => rw [EReal.mul_bot_of_pos h2]; rfl
  | coe r =>
    have : (2 : EReal) = ((2 : ℝ) : EReal) := rfl
    rw [this, ← EReal.coe_mul, ← EReal.coe_add, two_mul]
  | top => rw [EReal.mul_top_of_pos h2]; rfl

/-- The whole table is the sum of its sixteen blocks. -/
theorem sum_table (f : Fin 1024 → Fin 1024 → EReal) :
    ∑ c, ∑ e, f c e = ∑ i : Fin 4, ∑ j : Fin 4, blk f i j := by
  rw [sum_rows]
  refine Finset.sum_congr rfl fun i _ => ?_
  -- ∑ p, ∑ e, f (row i p) e = ∑ j, ∑ p, ∑ q, f (row i p) (row j q)
  have : ∀ p : Fin 256, ∑ e, f (row i p) e = ∑ j : Fin 4, ∑ q : Fin 256, f (row i p) (row j q) :=
    fun p => sum_rows _
  simp only [this, blk]
  rw [Finset.sum_comm]

/-- The transposed block of a symmetric table has the same sum. -/
theorem blk_symm (f : Fin 1024 → Fin 1024 → EReal) (hf : ∀ c e, f c e = f e c) (i j : Fin 4) :
    blk f j i = blk f i j := by
  unfold blk
  rw [Finset.sum_comm]
  refine Finset.sum_congr rfl fun p _ => Finset.sum_congr rfl fun q _ => hf _ _

/-- The sum of a symmetric table is the sum over the upper triangle of blocks: diagonal
blocks once, blocks above the diagonal twice. -/
theorem triangle_sum (f : Fin 1024 → Fin 1024 → EReal) (hf : ∀ c e, f c e = f e c) :
    0 + 1 * blk f 0 0 + 2 * blk f 0 1 + 2 * blk f 0 2 + 2 * blk f 0 3 + 1 * blk f 1 1
      + 2 * blk f 1 2 + 2 * blk f 1 3 + 1 * blk f 2 2 + 2 * blk f 2 3 + 1 * blk f 3 3
      = ∑ c, ∑ e, f c e := by
  rw [sum_table]
  simp only [Fin.sum_univ_four]
  rw [blk_symm f hf 0 1, blk_symm f hf 0 2, blk_symm f hf 0 3, blk_symm f hf 1 2,
    blk_symm f hf 1 3, blk_symm f hf 2 3]
  simp only [one_mul, zero_add, two_mul_ereal]
  abel

end Cert.BlockSum
-- ==== Proof.PointValue.lean ====
/-
The value one grid point stores is the batch total of the specification.

Row p of tile i of the stored table is row 256·i + p of the table, whose entries are the specification's normalised rows
of the input block. So the sum over a pair of distinct tiles (i, j) is block (i, j) of the specification's table of
absolute masked correlations — rows of different tiles are different rows, so no entry of such a block is on the
diagonal — and the sum over a tile against itself with its own diagonal zeroed is block (i, i): two rows of one tile
are the same row exactly when their numbers within the tile agree. The body's running total is therefore the
upper-triangle sum of blocks, diagonal blocks once and the others twice, which for a symmetric table is the sum of the
whole table.
-/
import proofs.«135145_j74277164417490_2_alg».proof.Proof.TileRead
import proofs.«135145_j74277164417490_2_alg».proof.Proof.NormRead
import proofs.«135145_j74277164417490_2_alg».proof.Proof.BlockSum

set_option maxRecDepth 16384

noncomputable section

open scoped BigOperators
open Idealize.ShloMosaic Idealize.ShloMosaic.TcCoe Idealize.SL.Sem Idealize.ShloMosaic.ValueIdx Cert.BlockSum

namespace Cert.KernelIdeal.Corr

open Cert.KernelIdeal Cert.KernelIdeal.Gen

variable {F : FTy → Type} [FloatOps F]

theorem tile0_apply (S : FVec Ideal S1024x1024 .bf16) (p : Fin 256) (s : Fin 1024) :
    tile0 S (ix2 p s) = S (ix2 (row 0 p) s) := by
  have h : 0 + p.val < 1024 := by have := p.isLt; omega
  refine (rowsAt_apply S 0 inb_S1024x1024_S256x1024_0_0 p s h).trans ?_
  exact congrArg (fun r => S (ix2 r s)) (Fin.ext (by show 0 + p.val = 256 * 0 + p.val; omega))

theorem tile1_apply (S : FVec Ideal S1024x1024 .bf16) (p : Fin 256) (s : Fin 1024) :
    tile1 S (ix2 p s) = S (ix2 (row 1 p) s) := by
  have h : 256 + p.val < 1024 := by have := p.isLt; omega
  refine (rowsAt_apply S 256 inb_S1024x1024_S256x1024_256_0 p s h).trans ?_
  exact congrArg (fun r => S (ix2 r s)) (Fin.ext (by show 256 + p.val = 256 * 1 + p.val; omega))

theorem tile2_apply (S : FVec Ideal S1024x1024 .bf16) (p : Fin 256) (s : Fin 1024) :
    tile2 S (ix2 p s) = S (ix2 (row 2 p) s) := by
  have h : 512 + p.val < 1024 := by have := p.isLt; omega
  refine (rowsAt_apply S 512 inb_S1024x1024_S256x1024_512_0 p s h).trans ?_
  exact congrArg (fun r => S (ix2 r s)) (Fin.ext (by show 512 + p.val = 256 * 2 + p.val; omega))

theorem tile3_apply (S : FVec Ideal S1024x1024 .bf16) (p : Fin 256) (s : Fin 1024) :
    tile3 S (ix2 p s) = S (ix2 (row 3 p) s) := by
  have h : 768 + p.val < 1024 := by have := p.isLt; omega
  refine (rowsAt_apply S 768 inb_S1024x1024_S256x1024_768_0 p s h).trans ?_
  exact congrArg (fun r => S (ix2 r s)) (Fin.ext (by show 768 + p.val = 256 * 3 + p.val; omega))

/-- Rows of different tiles are different rows. -/
theorem row_ne {i j : Fin 4} (hij : i ≠ j) (p q : Fin 256) : row i p ≠ row j q := fun h => by
  have h' := congrArg Fin.val h
  have hp := p.isLt; have hq := q.isLt
  have hv : i.val ≠ j.val := fun e => hij (Fin.ext e)
  change 256 * i.val + p.val = 256 * j.val + q.val at h'
  omega

/-- Two rows of one tile are the same row exactly when their numbers within the tile agree. -/
theorem row_eq_iff (i : Fin 4) (p q : Fin 256) : row i p = row i q ↔ p = q := by
  constructor
  · intro h
    have h' := congrArg Fin.val h
    change 256 * i.val + p.val = 256 * i.val + q.val at h'
    exact Fin.ext (by omega)
  · rintro rfl; rfl

section

variable (X : Fin 1024 → Fin 1024 → EReal) (S : FVec Ideal S1024x1024 .bf16)
  (hS : ∀ c s, S (ix2 c s) = Cert.CorrSpec.unit (X c) s)

include hS

/-- The sum over two distinct tiles is the block of the specification's table. -/
theorem off_eq (a b : FVec Ideal S256x1024 .bf16) (i j : Fin 4) (hij : i ≠ j)
    (ha : ∀ p s, a (ix2 p s) = S (ix2 (row i p) s)) (hb : ∀ q s, b (ix2 q s) = S (ix2 (row j q) s)) :
    offSum (F := Ideal) a b (ix2 (0 : Fin 1) (0 : Fin 1)) = blk (Cert.CorrSpec.entry X) i j := by
  rw [offSum_apply]
  unfold blk
  refine Finset.sum_congr rfl fun p _ => Finset.sum_congr rfl fun q _ => ?_
  unfold Cert.CorrSpec.entry Cert.CorrSpec.masked
  rw [if_neg (row_ne hij p q)]
  have e : (∑ s : Fin 1024, a (ix2 p s) * b (ix2 q s)) = Cert.CorrSpec.corr (X (row i p)) (X (row j q)) := by
    unfold Cert.CorrSpec.corr
    exact Finset.sum_congr rfl fun s _ => by rw [ha, hb, hS, hS]
  rw [e]

/-- The sum over a tile against itself, its diagonal zeroed, is the diagonal block. -/
theorem diag_eq (a b : FVec Ideal S256x1024 .bf16) (i : Fin 4)
    (ha : ∀ p s, a (ix2 p s) = S (ix2 (row i p) s)) (hb : ∀ q s, b (ix2 q s) = S (ix2 (row i q) s)) :
    diagSum (F := Ideal) a b (ix2 (0 : Fin 1) (0 : Fin 1)) = blk (Cert.CorrSpec.entry X) i i := by
  rw [diagSum_apply]
  unfold blk
  refine Finset.sum_congr rfl fun p _ => Finset.sum_congr rfl fun q _ => ?_
  unfold Cert.CorrSpec.entry Cert.CorrSpec.masked
  have e : (∑ s : Fin 1024, a (ix2 p s) * b (ix2 q s)) = Cert.CorrSpec.corr (X (row i p)) (X (row i q)) := by
    unfold Cert.CorrSpec.corr
    exact Finset.sum_congr rfl fun s _ => by rw [ha, hb, hS, hS]
  rw [e]
  by_cases h : p = q
  · rw [if_pos h, if_pos ((row_eq_iff i p q).mpr h)]
  · rw [if_neg h, if_neg (fun h' => h ((row_eq_iff i p q).mp h'))]

/-- The running total of a table of normalised rows is the batch total. -/
theorem chain_value : chain (F := Ideal) S (ix2 (0 : Fin 1) (0 : Fin 1)) = Cert.CorrSpec.batchTotal X := by
  unfold chain
  simp only [addf_apply, mulf_apply]
  rw [diag_eq X S hS (tile0 S) (tile0 S) 0 (tile0_apply S) (tile0_apply S),
    off_eq X S hS (tile0 S) (tile1 S) 0 1 (by decide) (tile0_apply S) (tile1_apply S),
    off_eq X S hS (tile0 S) (tile2 S) 0 2 (by decide) (tile0_apply S) (tile2_apply S),
    off_eq X S hS (tile0 S) (tile3 S) 0 3 (by decide) (tile0_apply S) (tile3_apply S),
    diag_eq X S hS (tile1 S) (tile1 S) 1 (tile1_apply S) (tile1_apply S),
    off_eq X S hS (tile1 S) (tile2 S) 1 2 (by decide) (tile1_apply S) (tile2_apply S),
    off_eq X S hS (tile1 S) (tile3 S) 1 3 (by decide) (tile1_apply S) (tile3_apply S),
    diag_eq X S hS (tile2 S) (tile2 S) 2 (tile2_apply S) (tile2_apply S),
    off_eq X S hS (tile2 S) (tile3 S) 2 3 (by decide) (tile2_apply S) (tile3_apply S),
    diag_eq X S hS (tile3 S) (tile3 S) 3 (tile3_apply S) (tile3_apply S)]
  show Ideal.ofBits .f32 0x00000000#32 + Ideal.ofBits .f32 0x3F800000#32 * _ + Ideal.ofBits .f32 0x40000000#32 * _
    + Ideal.ofBits .f32 0x40000000#32 * _ + Ideal.ofBits .f32 0x40000000#32 * _ + Ideal.ofBits .f32 0x3F800000#32 * _
    + Ideal.ofBits .f32 0x40000000#32 * _ + Ideal.ofBits .f32 0x40000000#32 * _ + Ideal.ofBits .f32 0x3F800000#32 * _
    + Ideal.ofBits .f32 0x40000000#32 * _ + Ideal.ofBits .f32 0x3F800000#32 * _ = _
  rw [Ideal.ofBits_zero_f32, ofBits_one, ofBits_two]
  exact triangle_sum (Cert.CorrSpec.entry X) (Cert.CorrSpec.entry_comm X)

end

/-- The value one grid point stores, from its input block: the batch total of the block's table. -/
theorem point_value (x : FVec Ideal S1x1024x1024 .f32) :
    total (F := Ideal) (k0_pay2 x) (ix3 (0 : Fin 1) (0 : Fin 1) (0 : Fin 1))
      = Cert.CorrSpec.batchTotal (fun c s => x (ix3 (0 : Fin 1) c s)) := by
  rw [total_eq, pay2_eq]
  rw [shapeCast_apply _ shapeCasts_S1x1_S1x1x1 (ix3 (0 : Fin 1) (0 : Fin 1) (0 : Fin 1)) (ix2 (0 : Fin 1) (0 : Fin 1)) (by decide)]
  exact chain_value (fun c s => x (ix3 (0 : Fin 1) c s)) (normTable x) (fun c s => normTable_apply x c s)

end Cert.KernelIdeal.Corr

end
-- ==== Proof.KernelArray.lean ====
/-
The array of batch totals after the region.

The grid has one point per batch. At point t the input block is batch t of the array the region reads — block
coordinate (0, c, s) is array coordinate (t, c, s) — and the output block is the single entry (t, 0, 0) of the array of
totals. What point t writes back is the batch total of batch t; every point writes back and every entry of the output
array is some point's block, so after the region the array holds, at (n, 0, 0), the batch total of batch n.
-/
import proofs.«135145_j74277164417490_2_alg».proof.Proof.Gen.KernelIdeal.Frame
import proofs.«135145_j74277164417490_2_alg».proof.Proof.KernelPiece
import proofs.«135145_j74277164417490_2_alg».proof.Proof.PointValue
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Corr

open Cert.KernelIdeal Cert.KernelIdeal.Gen

variable {F : FTy → Type} [FloatOps F]

variable (m : (ℓ : Loc nD τ sig) → Buf (Elt Ideal) ℓ) (ρ : Dev nD → PrngReg)

/-- Batch n of an array of 32 tables. -/
def batch (xr : S32x1024x1024.Idx → EReal) (n : Fin 32) (c s : Fin 1024) : EReal := xr (ix3 n c s)

/-- The array of batch totals. -/
def totals (xr : S32x1024x1024.Idx → EReal) : S32x1x1.Idx → EReal :=
  fun i => Cert.CorrSpec.batchTotal (batch xr ⟨(i 0).val, (i 0).isLt⟩)

/-- Both windows move with the grid point along the batch axis and nowhere else. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The input block at point t is batch t of the array the region reads. -/
theorem iblk_apply (c : Dev nD) (t : Fin cfg0.N) (ht : t.val < 32) (r s : Fin 1024) :
    (iblk m c 0 t : Vec Ideal S1x1024x1024 .f32) (ix3 (0 : Fin 1) r s) = V m c main_v0 (ix3 ⟨t.val, ht⟩ r s) := by
  unfold iblk
  rw [View.read_apply]
  show V m c main_v0 _ = V m c main_v0 _
  obtain ⟨e0, e1, e2, -, -, -⟩ := idx_facts t
  refine congrArg (V m c main_v0) (funext fun a => Fin.ext ?_)
  match a with
  | ⟨0, _⟩ => show win0_0.index t (0 : Fin 3) * 1 + 1 * 0 = t.val; rw [e0]; omega
  | ⟨1, _⟩ => show win0_0.index t (1 : Fin 3) * 1024 + 1 * r.val = r.val; rw [e1]; omega
  | ⟨2, _⟩ => show win0_0.index t (2 : Fin 3) * 1024 + 1 * s.val = s.val; rw [e2]; omega

/-- What point t writes back is its block of the array of batch totals. -/
theorem flushed_eq (c : Dev nD) (t : Fin cfg0.N) :
    (dats m 0 c).flushed 1 t = ((cfg0.win 1).blk t).view.read (Elt Ideal) (totals (V m c main_v0)) := by
  show (cfg0.win 1).cut (grid0.coords t) ((dats m 0 c).after 1 t) = _
  rw [after0_1]
  unfold outsAt0
  rw [out_eq]
  have ht : t.val < 32 := Nat.lt_of_lt_of_eq t.isLt N_0
  obtain ⟨-, -, -, e3, -, -⟩ := idx_facts t
  funext y
  have hy : y = ix3 (0 : Fin 1) (0 : Fin 1) (0 : Fin 1) := funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => have h : (y 2).val < 1 := (y 2).isLt; show (y 2).val = 0; omega)
  subst hy
  show total (F := Ideal) (k0_pay2 (iblk m c 0 t)) (ix3 (0 : Fin 1) (0 : Fin 1) (0 : Fin 1))
    = totals (V m c main_v0) (((cfg0.win 1).blk t).view.emb (ix3 (0 : Fin 1) (0 : Fin 1) (0 : Fin 1)))
  refine (point_value (iblk m c 0 t)).trans ?_
  unfold totals
  refine congrArg Cert.CorrSpec.batchTotal (funext fun r => funext fun s => ?_)
  rw [iblk_apply m c t ht r s]
  unfold batch
  refine congrArg (fun n => V m c main_v0 (ix3 n r s)) (Fin.ext ?_)
  show t.val = win0_1.index t (0 : Fin 3) * 1 + 1 * 0
  rw [e3]; omega

/-- An entry of the output array is in point t's block when each coordinate is in the block's range. -/
theorem mem_blk (t : Fin cfg0.N) (i : S32x1x1.Idx) :
    i ∈ ((cfg0.win 1).blk t).view.set ↔ ∀ a : Fin 3, win0_1.index t a * S1x1x1.size a ≤ (i a).val
      ∧ (i a).val < win0_1.index t a * S1x1x1.size a + S1x1x1.size a := by
  show i ∈ ((View.whole main_v1).slice (win0_1.rect t)).set ↔ _
  rw [View.set_slice_whole, Rect.mem_set_unit]
  exact Iff.rfl

/-- Every entry of the output array is some point's block: entry (n, 0, 0) is point n's. -/
theorem cover (i : S32x1x1.Idx) :
    ∃ t : Fin cfg0.N, (cfg0.win 1).flush t = true ∧ i ∈ ((cfg0.win 1).blk t).view.set := by
  have h0 : (i 0).val < 32 := (i 0).isLt
  have h1 : (i 1).val < 1 := (i 1).isLt
  have h2 : (i 2).val < 1 := (i 2).isLt
  obtain ⟨t, ht⟩ : ∃ t : Fin cfg0.N, t.val = (i 0).val := ⟨⟨(i 0).val, by rw [show cfg0.N = 32 from N_0]; exact h0⟩, rfl⟩
  obtain ⟨-, -, -, e3, e4, e5⟩ := idx_facts t
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; rw [e3]; omega
  | ⟨1, _⟩ => show win0_1.index t (1 : Fin 3) * 1 ≤ (i 1).val ∧ (i 1).val < win0_1.index t (1 : Fin 3) * 1 + 1; rw [e4]; omega
  | ⟨2, _⟩ => show win0_1.index t (2 : Fin 3) * 1 ≤ (i 2).val ∧ (i 2).val < win0_1.index t (2 : Fin 3) * 1 + 1; rw [e5]; omega

/-- After the region the output array holds the batch totals of the array the region read. -/
theorem final (c : Dev nD) : (dats m 0 c).arrAt 1 cfg0.N = totals (V m c main_v0) :=
  (dats m 0 c).arrAt_eq_of_cover 1 (totals (V m c main_v0)) (fun t _ => flushed_eq m c t) (cover)

end Cert.KernelIdeal.Corr

end
-- ==== Proof.KernelRun.lean ====
/-
The kernel's run, with its result named.

Before the region the host reshapes the argument into 32 tables; after it the host sums the 32 batch totals (from zero)
and divides three times. Read on the extended reals the sum over every entry of the 32 × 1 × 1 array is the sum over
the batches, and the three divisions are the specification's, so the result is the specification's average of the
reshaped argument. The run itself is the frame run, with this value in place of the library's name for it.
-/
import proofs.«135145_j74277164417490_2_alg».proof.Proof.KernelArray
import proofs.«135145_j74277164417490_2_alg».proof.Proof.RefIsSpec
import Idealize.ShloMosaic.Lib.StableHlo.Run
import Idealize.ShloMosaic.PureOps.Ideal.Laws

set_option maxRecDepth 16384

noncomputable section

open Idealize.ShloMosaic Idealize.ShloMosaic.TcCoe Idealize.SL.Sem
open scoped BigOperators
open Idealize.ShloMosaic.Pipeline (Dat)
open Idealize.ShloMosaic.ValueIdx

namespace Cert.KernelIdeal.Corr

open Cert.KernelIdeal Cert.KernelIdeal.Gen

variable {F : FTy → Type} [FloatOps F]

variable (m : (ℓ : Loc nD τ sig) → Buf (Elt Ideal) ℓ) (ρ : Dev nD → PrngReg)

/-- The array the region reads is the reshaped argument. -/
theorem V_main_v0 (c : Dev nD) : (V m c main_v0 : S32x1024x1024.Idx → EReal)
    = shapeCast S32x1024x1024 (m ((c : Thread nD τ).loc main_arg0)) shapeCasts_S32x1024x32x32_S32x1024x1024 := by
  show StableHlo.after hostOps0 (fun b => m (c, b)) (Proc.devRef .tc main_v0) = _
  after_results
  rfl

/-- The host operations after the region, as one function of the array of totals. -/
def tail (A : S32x1x1.Idx → EReal) : S_.Idx → EReal :=
  Host.divf (F := Ideal)
    (Host.divf (F := Ideal)
      (Host.divf (F := Ideal)
        (Host.reduceAdd (F := Ideal) A (constant (F := Ideal) S_ .f32 0x00000000#32) reducesTo_S32x1x1_S_d0_1_2 h_S_)
        (constant (F := Ideal) S_ .f32 0x48FFC000#32))
      (constant (F := Ideal) S_ .f32 0x40000000#32))
    (constant (F := Ideal) S_ .f32 0x42000000#32)

/-- The sum of the array of totals, from zero, is the sum of the batch totals. -/
theorem sum_totals (xr : S32x1024x1024.Idx → EReal) (i : S_.Idx) :
    Host.reduceAdd (F := Ideal) (totals xr) (constant (F := Ideal) S_ .f32 0x00000000#32) reducesTo_S32x1x1_S_d0_1_2 h_S_ i
      = ∑ n : Fin 32, Cert.CorrSpec.batchTotal (batch xr n) := by
  simp only [Host.reduceAdd, Ideal.hostReduceAdd_def]
  rw [Ideal.hostReduceAdd_total reducesTo_S32x1x1_S_d0_1_2 (fun b => b.elim0) (totals xr) _ i]
  show Ideal.ofBits .f32 0x00000000#32 + _ = _
  rw [Ideal.ofBits_zero_f32, zero_add, Cert.ReferenceIdeal.RefValue.sum_idx3]
  refine Finset.sum_congr rfl fun n _ => ?_
  rw [Fin.sum_univ_one, Fin.sum_univ_one]
  rfl

/-- The tail of the batch totals is the specification's average. -/
theorem tail_totals (xr : S32x1024x1024.Idx → EReal) (i : S_.Idx) :
    tail (totals xr) i = Cert.CorrSpec.avg (batch xr) := by
  unfold tail Cert.CorrSpec.avg Cert.CorrSpec.pairs Cert.CorrSpec.two Cert.CorrSpec.batches
  show Ideal.div (Ideal.div (Ideal.div (Host.reduceAdd (F := Ideal) (totals xr) _ reducesTo_S32x1x1_S_d0_1_2 h_S_ i) _) _) _ = _
  rw [sum_totals]
  rfl

/-- The result after the host tail: the specification's average of the reshaped argument. -/
theorem result_eq (c : Dev nD) :
    Pipeline.afterTail₀ cfgs (dats m) 0 (V0 m) [hostOps1] c main_v5
      = fun _ => Cert.CorrSpec.avg (batch (shapeCast S32x1024x1024 (m ((c : Thread nD τ).loc main_arg0)) shapeCasts_S32x1024x32x32_S32x1024x1024)) := by
  have e : Pipeline.withArrays (cfgs 0).spec c (V0 m c) (fun w => (dats m 0 c).arrAt w (cfgs 0).N) (Proc.devRef .tc main_v1)
      = totals (V m c main_v0) :=
    (Pipeline.withArrays_arr spec0 launch0.win.arr_inj c _ _ 1).trans (final m c)
  unfold Pipeline.afterTail₀
  show StableHlo.after hostOps1 _ (Proc.devRef .tc main_v5) = _
  after_results
  show tail (Pipeline.withArrays (cfgs 0).spec c (V0 m c) (fun w => (dats m 0 c).arrAt w (cfgs 0).N) (Proc.devRef .tc main_v1)) = _
  rw [e]
  funext i
  rw [tail_totals, V_main_v0]

/-- Every weakly fair execution of the kernel's program terminates with the result at the specification's average of
    the reshaped argument, the argument unchanged. -/
theorem run : θ_run defs (onTc (τ := τ) (main (F := Ideal))) ⟨m, fun _ => 0, ρ⟩ fun r => ∀ c : Dev nD,
      r.2.mem ((c : Thread nD τ).loc main_v5)
        = (fun _ => Cert.CorrSpec.avg (batch (shapeCast S32x1024x1024 (m ((c : Thread nD τ).loc main_arg0)) shapeCasts_S32x1024x32x32_S32x1024x1024)))
      ∧ r.2.mem ((c : Thread nD τ).loc main_arg0) = m ((c : Thread nD τ).loc main_arg0) :=
  (θ_run defs _ _).mono (fun _ h c =>
      ⟨((h c).2 main_v5 (Pipeline.mem_restRefs_of main_v5 (by decide) (by decide))).trans (result_eq m c),
        ((h c).2 main_arg0 (Pipeline.mem_restRefs_of main_arg0 (by decide) (by decide))).trans (W_main_arg0 m (dats m) c)⟩)
    (run_main m ρ)

end Cert.KernelIdeal.Corr

end
-- ==== Proof.lean ====
/-
  The kernel and its reference compute the same number.

  Input: 32 batches of 1024 rows (channels) of 1024 entries (the 32 × 32 positions laid out in a line). Each row is
  centred on its mean and divided by its Euclidean length plus a small constant; the correlation of two rows of a batch
  is the inner product of their normalised forms; the result is the sum, over the batches and over all ordered pairs of
  distinct rows, of the absolute correlations, divided by the number of unordered pairs, by two and by the number of
  batches.

  The reference forms each batch's whole 1024 × 1024 table of correlations, zeroes its diagonal, takes absolute values
  and sums everything at once. The kernel handles one batch per grid point: it keeps the normalised rows in a scratch
  buffer, forms only the ten 256 × 256 tiles of the table on or above the diagonal, zeroes the diagonal inside the four
  diagonal tiles, sums the absolute values of each tile, counts a tile above the diagonal twice and adds the ten numbers
  up; the host then adds the 32 batch numbers and performs the three divisions.

  With floats read as extended reals the two agree for every input, finite or not. The normalisation is the same
  sequence of the same operations with the same constants on both sides (a change of float format is the identity
  there, and a sum that starts from zero is the sum). A correlation does not depend on the order of its two rows
  because a product does not depend on the order of its factors, so the table of absolute masked correlations is
  symmetric, the tile below the diagonal has the same sum as its mirror image above it, and doubling a number is adding
  it to itself — the only facts about addition and multiplication that are used, all of which hold at the infinities
  too. So the precondition is never opened.

  The three frames: the kernel's two are the generated frame runs; the reference's is its generated run with the result
  dropped. The idealization rewrote nothing, so there is nothing to preserve.
-/
import proofs.«135145_j74277164417490_2_alg».proof.Defs
import proofs.«135145_j74277164417490_2_alg».proof.Proof.Gen.Kernel
import proofs.«135145_j74277164417490_2_alg».proof.Proof.Gen.Kernel.Skeleton
import proofs.«135145_j74277164417490_2_alg».proof.Proof.Gen.Kernel.Launch
import proofs.«135145_j74277164417490_2_alg».proof.Proof.Gen.Kernel.Points
import proofs.«135145_j74277164417490_2_alg».proof.Proof.Gen.Kernel.Frame
import proofs.«135145_j74277164417490_2_alg».proof.Proof.Gen.KernelIdeal
import proofs.«135145_j74277164417490_2_alg».proof.Proof.Gen.KernelIdeal.Skeleton
import proofs.«135145_j74277164417490_2_alg».proof.Proof.Gen.KernelIdeal.Launch
import proofs.«135145_j74277164417490_2_alg».proof.Proof.Gen.KernelIdeal.Points
import proofs.«135145_j74277164417490_2_alg».proof.Proof.Gen.KernelIdeal.Frame
import proofs.«135145_j74277164417490_2_alg».proof.Proof.Gen.ReferenceIdeal
import proofs.«135145_j74277164417490_2_alg».proof.Proof.Gen.Pre_finite_inputs
import proofs.«135145_j74277164417490_2_alg».proof.Proof.Gen.ReferenceIdeal.Run
import proofs.«135145_j74277164417490_2_alg».proof.Proof.Gen.ReferenceIdeal.Read
import proofs.«135145_j74277164417490_2_alg».proof.Proof.RefIsSpec
import proofs.«135145_j74277164417490_2_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the extended reals the kernel's result is the specification's average of the reshaped argument, and so is the
    reference's, of an argument that agrees. -/
theorem algebraic : Cert.algebraic_KernelIdeal_ReferenceIdeal := by
  intro m ρ m' ρ' _ hagree
  refine ⟨_, Cert.KernelIdeal.Corr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, hagree c]
  funext i
  rw [Cert.ReferenceIdeal.RefValue.result_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
